-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v25)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v25) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S1600000 : Shape := ⟨1, ![1600000]⟩
abbrev S64x64 : Shape := ⟨2, ![64, 64]⟩
abbrev S64 : Shape := ⟨1, ![64]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_

variable [Facts]

def fn {F : FTy → Type} [FloatOps F] (main_arg0 : FVec F S100000x64 .f32) (main_arg1 : IVec S1600000 32) (main_arg2 : IVec S1600000 32) (main_arg3 : FVec F S64x64 .f32) (main_arg4 : FVec F S64 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x64 .f32 := Host.absf main_arg3
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg4
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  main_v13
-- ==== Kernel.lean ====
abbrev S100000x64 : Shape := ⟨2, ![100000, 64]⟩
abbrev S1600000 : Shape := ⟨1, ![1600000]⟩
abbrev S64x64 : Shape := ⟨2, ![64, 64]⟩
abbrev S64 : Shape := ⟨1, ![64]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S10000x64 : Shape := ⟨2, ![10000, 64]⟩
abbrev S10000x1 : Shape := ⟨2, ![10000, 1]⟩
abbrev S1600000x64 : Shape := ⟨2, ![1600000, 64]⟩
abbrev S1x64 : Shape := ⟨2, ![1, 64]⟩
abbrev S4000x64 : Shape := ⟨2, ![4000, 64]⟩
abbrev S4000x1 : Shape := ⟨2, ![4000, 1]⟩

abbrev nBuf : Space → Nat
  | .hbm => 37
  | .vmem => 14
  | .smem => 0
  | _ => 0

abbrev bufTy : (tb : Table) → Fin (tcTables nBuf tb) → BufTy
  | .hbm, ⟨0, _⟩ => ⟨S100000x64, .f32⟩
  | .hbm, ⟨1, _⟩ => ⟨S1600000, .i32⟩
  | .hbm, ⟨2, _⟩ => ⟨S1600000, .i32⟩
  | .hbm, ⟨3, _⟩ => ⟨S64x64, .f32⟩
  | .hbm, ⟨4, _⟩ => ⟨S64, .f32⟩
  | .hbm, ⟨5, _⟩ => ⟨S_, .f32⟩
  | .hbm, ⟨6, _⟩ => ⟨S1600000, .f32⟩
  | .hbm, ⟨7, _⟩ => ⟨S_, .f32⟩
  | .hbm, ⟨8, _⟩ => ⟨S100000, .f32⟩
  | .hbm, ⟨9, _⟩ => ⟨S1600000x1, .i32⟩
  | .hbm, ⟨10, _⟩ => ⟨S100000, .f32⟩
  | .hbm, ⟨11, _⟩ => ⟨S_, .f32⟩
  | .hbm, ⟨12, _⟩ => ⟨S100000, .f32⟩
  | .hbm, ⟨13, _⟩ => ⟨S1600000x1, .i32⟩
  | .hbm, ⟨14, _⟩ => ⟨S100000, .f32⟩
  | .hbm, ⟨15, _⟩ => ⟨S100000x1, .f32⟩
  | .hbm, ⟨16, _⟩ => ⟨S100000x1, .bf16⟩
  | .hbm, ⟨17, _⟩ => ⟨S100000x1, .f32⟩
  | .hbm, ⟨18, _⟩ => ⟨S100000x1, .bf16⟩
  | .hbm, ⟨19, _⟩ => ⟨S100000x64, .bf16⟩
  | .hbm, ⟨20, _⟩ => ⟨S_, .i32⟩
  | .hbm, ⟨21, _⟩ => ⟨S1600000, .i32⟩
  | .hbm, ⟨22, _⟩ => ⟨S1600000, .i1⟩
  | .hbm, ⟨23, _⟩ => ⟨S_, .i32⟩
  | .hbm, ⟨24, _⟩ => ⟨S1600000, .i32⟩
  | .hbm, ⟨25, _⟩ => ⟨S1600000, .i32⟩
  | .hbm, ⟨26, _⟩ => ⟨S1600000, .i32⟩
  | .hbm, ⟨27, _⟩ => ⟨S1600000x1, .i32⟩
  | .hbm, ⟨28, _⟩ => ⟨S1600000x64, .bf16⟩
  | .hbm, ⟨29, _⟩ => ⟨S1600000x64, .f32⟩
  | .hbm, ⟨30, _⟩ => ⟨S_, .f32⟩
  | .hbm, ⟨31, _⟩ => ⟨S100000x64, .f32⟩
  | .hbm, ⟨32, _⟩ => ⟨S1600000x1, .i32⟩
  | .hbm, ⟨33, _⟩ => ⟨S100000x64, .f32⟩
  | .hbm, ⟨34, _⟩ => ⟨S64x64, .f32⟩
  | .hbm, ⟨35, _⟩ => ⟨S1x64, .f32⟩
  | .hbm, ⟨36, _⟩ => ⟨S100000x64, .f32⟩
  | .local _ .vmem, ⟨0, _⟩ => ⟨S10000x64, .f32⟩
  | .local _ .vmem, ⟨1, _⟩ => ⟨S10000x64, .f32⟩
  | .local _ .vmem, ⟨2, _⟩ => ⟨S10000x1, .bf16⟩
  | .local _ .vmem, ⟨3, _⟩ => ⟨S10000x1, .bf16⟩
  | .local _ .vmem, ⟨4, _⟩ => ⟨S10000x64, .bf16⟩
  | .local _ .vmem, ⟨5, _⟩ => ⟨S10000x64, .bf16⟩
  | .local _ .vmem, ⟨6, _⟩ => ⟨S4000x64, .f32⟩
  | .local _ .vmem, ⟨7, _⟩ => ⟨S4000x64, .f32⟩
  | .local _ .vmem, ⟨8, _⟩ => ⟨S64x64, .f32⟩
  | .local _ .vmem, ⟨9, _⟩ => ⟨S1x64, .f32⟩
  | .local _ .vmem, ⟨10, _⟩ => ⟨S4000x1, .bf16⟩
  | .local _ .vmem, ⟨11, _⟩ => ⟨S4000x1, .bf16⟩
  | .local _ .vmem, ⟨12, _⟩ => ⟨S4000x64, .f32⟩
  | .local _ .vmem, ⟨13, _⟩ => ⟨S4000x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst_1 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_c : Ref sig .tc := ⟨.hbm, 20, rfl⟩
abbrev main_v12 : Ref sig .tc := ⟨.hbm, 21, rfl⟩
abbrev main_v13 : Ref sig .tc := ⟨.hbm, 22, rfl⟩
abbrev main_c_2 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_3 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc1_stg4_0 : Ref sig .tc := ⟨.vmem, 12, rfl⟩
abbrev cc1_stg4_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc1_sem4_0 : DmaSem sig := 12
abbrev cc1_sem4_1 : DmaSem sig := 13

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S10000x1 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S10000x64 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S64x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S4000x1 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S4000x64 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  bitsLt_bf16_f32 : FTy.bits .bf16 < FTy.bits .f32
  inb_S10000x1_S10000x1_0_0 : ∀ a, (![0, 0] : Fin 2 → Nat) a + S10000x1.size a ≤ S10000x1.size a
  h_S10000x1 : 0 < S10000x1.numel
  shapeCasts_S10000x1_S10000x1 : S10000x1.ShapeCasts S10000x1
  inb_S10000x64_S10000x64_0_0 : ∀ a, (![0, 0] : Fin 2 → Nat) a + S10000x64.size a ≤ S10000x64.size a
  h_S10000x64 : 0 < S10000x64.numel
  broadcasts_S10000x1_S10000x64 : S10000x1.Broadcasts S10000x64
  packedbf16_S10000x64_S10000x64_0_0 : (Rect.unit (s := S10000x64) ![0, 0] S10000x64.size inb_S10000x64_S10000x64_0_0).PackedRows (EltTy.packing .bf16)
  bcast_S_S100000x64 : S_.BroadcastsInDim S100000x64 (![] : Fin 0 → Fin S100000x64.rank)
  transposes_S64x64_S64x64_1_0 : S64x64.Transposes [1, 0] S64x64
  bcast_S64_S1x64_1 : S64.BroadcastsInDim S1x64 (![1] : Fin 1 → Fin S1x64.rank)
  inb_S4000x64_S4000x64_0_0 : ∀ a, (![0, 0] : Fin 2 → Nat) a + S4000x64.size a ≤ S4000x64.size a
  h_S4000x64 : 0 < S4000x64.numel
  shapeCasts_S4000x64_S4000x64 : S4000x64.ShapeCasts S4000x64
  inb_S64x64_S64x64_0_0 : ∀ a, (![0, 0] : Fin 2 → Nat) a + S64x64.size a ≤ S64x64.size a
  h_S64x64 : 0 < S64x64.numel
  shapeCasts_S64x64_S64x64 : S64x64.ShapeCasts S64x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S4000x64 : S1x64.Broadcasts S4000x64
  inb_S4000x1_S4000x1_0_0 : ∀ a, (![0, 0] : Fin 2 → Nat) a + S4000x1.size a ≤ S4000x1.size a
  h_S4000x1 : 0 < S4000x1.numel
  shapeCasts_S4000x1_S4000x1 : S4000x1.ShapeCasts S4000x1
  broadcasts_S4000x1_S4000x64 : S4000x1.Broadcasts S4000x64
  scatter_S100000_S1600000x1_S1600000_n_0_0_1_wf : ScatterDims.WF S100000 S1600000x1 S1600000 [] [0] [0] 1
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S4000x64_S64x64_S4000x64_1_0_0_1_n_n_wf : DotDims.WF S4000x64 S64x64 S4000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x64.size a ≤ S100000x64.size a
  hwx0_0 : ∀ i : grid0.Coords, EltTy.bits .f32 = 32 ∨ (Rect.block (s := S100000x64) S10000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S10000x1.size a ≤ S100000x1.size a
  hwx0_1 : ∀ i : grid0.Coords, EltTy.bits .bf16 = 32 ∨ (Rect.block (s := S100000x1) S10000x1.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x64.size a ≤ S100000x64.size a
  hwx0_2 : ∀ i : grid0.Coords, EltTy.bits .bf16 = 32 ∨ (Rect.block (s := S100000x64) S10000x64.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x64.size a ≤ S100000x64.size a
  hwx1_0 : ∀ i : grid1.Coords, EltTy.bits .f32 = 32 ∨ (Rect.block (s := S100000x64) S4000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S64x64.size a ≤ S64x64.size a
  hwx1_1 : ∀ i : grid1.Coords, EltTy.bits .f32 = 32 ∨ (Rect.block (s := S64x64) S64x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S4000x1.size a ≤ S100000x1.size a
  hwx1_3 : ∀ i : grid1.Coords, EltTy.bits .bf16 = 32 ∨ (Rect.block (s := S100000x1) S4000x1.size (cc1_transform_3 i) (hinb1_3 i)).WholeWords (EltTy.packing .bf16)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S4000x64.size a ≤ S100000x64.size a
  hwx1_4 : ∀ i : grid1.Coords, EltTy.bits .f32 = 32 ∨ (Rect.block (s := S100000x64) S4000x64.size (cc1_transform_4 i) (hinb1_4 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S4000x64_S64x64_S4000x64_1_0_0_1_n_n : DotDims S4000x64 S64x64 S4000x64 where
  lhsContracting := [1]
  rhsContracting := [0]
  lhsNonContracting := [0]
  rhsNonContracting := [1]
  lhsBatch := []
  rhsBatch := []
  wf := dot_S4000x64_S64x64_S4000x64_1_0_0_1_n_n_wf

abbrev win0_0 : Pipeline.Window sig grid0 :=
  Pipeline.Window.ofSpec (Memref.whole main_arg0) S10000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v8) S10000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v11) S10000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v22) S4000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v23) S64x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v24) S1x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v10) S4000x1.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v25) S4000x64.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S100000x64 : Shape := ⟨2, ![100000, 64]⟩
abbrev S1600000 : Shape := ⟨1, ![1600000]⟩
abbrev S64x64 : Shape := ⟨2, ![64, 64]⟩
abbrev S64 : Shape := ⟨1, ![64]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S1600000x64 : Shape := ⟨2, ![1600000, 64]⟩
abbrev S1x64 : Shape := ⟨2, ![1, 64]⟩

abbrev nBuf : Space → Nat
  | .hbm => 49
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S1600000, .i32⟩
  | .hbm, ⟨2, _⟩ => ⟨S1600000, .i32⟩
  | .hbm, ⟨3, _⟩ => ⟨S64x64, .f32⟩
  | .hbm, ⟨4, _⟩ => ⟨S64, .f32⟩
  | .hbm, ⟨5, _⟩ => ⟨S_, .f32⟩
  | .hbm, ⟨6, _⟩ => ⟨S1600000, .f32⟩
  | .hbm, ⟨7, _⟩ => ⟨S_, .f32⟩
  | .hbm, ⟨8, _⟩ => ⟨S100000, .f32⟩
  | .hbm, ⟨9, _⟩ => ⟨S1600000x1, .i32⟩
  | .hbm, ⟨10, _⟩ => ⟨S100000, .f32⟩
  | .hbm, ⟨11, _⟩ => ⟨S_, .f32⟩
  | .hbm, ⟨12, _⟩ => ⟨S_, .f32⟩
  | .hbm, ⟨13, _⟩ => ⟨S100000, .f32⟩
  | .hbm, ⟨14, _⟩ => ⟨S100000, .f32⟩
  | .hbm, ⟨15, _⟩ => ⟨S100000, .f32⟩
  | .hbm, ⟨16, _⟩ => ⟨S100000x1, .f32⟩
  | .hbm, ⟨17, _⟩ => ⟨S100000x64, .f32⟩
  | .hbm, ⟨18, _⟩ => ⟨S100000x64, .f32⟩
  | .hbm, ⟨19, _⟩ => ⟨S_, .i32⟩
  | .hbm, ⟨20, _⟩ => ⟨S1600000, .i32⟩
  | .hbm, ⟨21, _⟩ => ⟨S1600000, .i1⟩
  | .hbm, ⟨22, _⟩ => ⟨S_, .i32⟩
  | .hbm, ⟨23, _⟩ => ⟨S1600000, .i32⟩
  | .hbm, ⟨24, _⟩ => ⟨S1600000, .i32⟩
  | .hbm, ⟨25, _⟩ => ⟨S1600000, .i32⟩
  | .hbm, ⟨26, _⟩ => ⟨S1600000x1, .i32⟩
  | .hbm, ⟨27, _⟩ => ⟨S1600000x64, .f32⟩
  | .hbm, ⟨28, _⟩ => ⟨S_, .f32⟩
  | .hbm, ⟨29, _⟩ => ⟨S100000x64, .f32⟩
  | .hbm, ⟨30, _⟩ => ⟨S1600000x1, .i32⟩
  | .hbm, ⟨31, _⟩ => ⟨S100000x64, .f32⟩
  | .hbm, ⟨32, _⟩ => ⟨S64x64, .f32⟩
  | .hbm, ⟨33, _⟩ => ⟨S100000x64, .f32⟩
  | .hbm, ⟨34, _⟩ => ⟨S1x64, .f32⟩
  | .hbm, ⟨35, _⟩ => ⟨S100000x64, .f32⟩
  | .hbm, ⟨36, _⟩ => ⟨S100000x64, .f32⟩
  | .hbm, ⟨37, _⟩ => ⟨S_, .f32⟩
  | .hbm, ⟨38, _⟩ => ⟨S100000, .f32⟩
  | .hbm, ⟨39, _⟩ => ⟨S1600000x1, .i32⟩
  | .hbm, ⟨40, _⟩ => ⟨S100000, .f32⟩
  | .hbm, ⟨41, _⟩ => ⟨S_, .f32⟩
  | .hbm, ⟨42, _⟩ => ⟨S_, .f32⟩
  | .hbm, ⟨43, _⟩ => ⟨S100000, .f32⟩
  | .hbm, ⟨44, _⟩ => ⟨S100000, .f32⟩
  | .hbm, ⟨45, _⟩ => ⟨S100000, .f32⟩
  | .hbm, ⟨46, _⟩ => ⟨S100000x1, .f32⟩
  | .hbm, ⟨47, _⟩ => ⟨S100000x64, .f32⟩
  | .hbm, ⟨48, _⟩ => ⟨S100000x64, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst_1 : Ref sig .tc := ⟨.hbm, 11, rfl⟩
abbrev main_call0_v0 : Ref sig .tc := ⟨.hbm, 12, rfl⟩
abbrev main_call0_v1 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_c : Ref sig .tc := ⟨.hbm, 19, rfl⟩
abbrev main_v9 : Ref sig .tc := ⟨.hbm, 20, rfl⟩
abbrev main_v10 : Ref sig .tc := ⟨.hbm, 21, rfl⟩
abbrev main_c_2 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_3 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_4 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_cst_5 : Ref sig .tc := ⟨.hbm, 41, rfl⟩
abbrev main_call1_v0 : Ref sig .tc := ⟨.hbm, 42, rfl⟩
abbrev main_call1_v1 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  bcast_S_S100000x64 : S_.BroadcastsInDim S100000x64 (![] : Fin 0 → Fin S100000x64.rank)
  transposes_S64x64_S64x64_1_0 : S64x64.Transposes [1, 0] S64x64
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  scatter_S100000_S1600000x1_S1600000_n_0_0_1_wf : ScatterDims.WF S100000 S1600000x1 S1600000 [] [0] [0] 1
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S100000x64_S64x64_S100000x64_1_0_0_1_n_n_wf : DotDims.WF S100000x64 S64x64 S100000x64 [1] [0] [0] [1] [] []

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf

class Facts : Prop extends Facts₀ where

variable [Facts]
-- ==== Proof.LibDenseEntry.lean ====
/-
  The plain matrix product [M, K] × [K, N] → [M, N] over the extended reals, read at an entry, for any extents and
  any dimension record with the plain axis lists: entry (p, n) is ∑ k, l (p, k) · r (k, n) — for the matrix unit's
  product into an accumulator that is zero everywhere, and for the host's product.
-/
import Idealize.ShloMosaic.PureOps.Ideal.Laws
import Idealize.ShloMosaic.Lib.ValueIdx

noncomputable section

namespace Cert.LibDenseEntry

open Idealize.ShloMosaic Idealize.ShloMosaic.ValueIdx

variable {M K N : ℕ}

/-- [M, K] × [K, N] → [M, N], the left operand's second axis contracted with the right operand's first:
    entry (p, n) is ∑ k, l (p, k) · r (k, n). -/
theorem matmul_plain_zero_apply {φ₁ φ₂ : FTy} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (prec : Option ContractPrecision)
    (l : FVec Ideal ⟨2, ![M, K]⟩ φ₁) (r : FVec Ideal ⟨2, ![K, N]⟩ φ₂) (p : Fin M) (n : Fin N) :
    FloatOps.matmul d prec l r (constant ⟨2, ![M, N]⟩ .f32 0x00000000#32) (ix2 p n)
      = ∑ k : Fin K, l (ix2 p k) * r (ix2 k n) := by
  obtain ⟨lc, rc, ln, rn, lb, rb, wf⟩ := d
  dsimp only at h1 h2 h3 h4 h5 h6
  subst h1 h2 h3 h4 h5 h6
  generalize hd : (⟨[1], [0], [0], [1], [], [], wf⟩ : DotDims ⟨2, ![M, K]⟩ ⟨2, ![K, N]⟩ ⟨2, ![M, N]⟩) = d
  have hr : d.contr.rank = 1 := by subst hd; rfl
  have hs : d.contr.size ⟨0, by rw [hr]; exact Nat.one_pos⟩ = K := by subst hd; rfl
  have hlc : d.lhsContracting = [1] := by subst hd; rfl
  have hrc : d.rhsContracting = [0] := by subst hd; rfl
  have lrow : ∀ (j : (⟨2, ![M, N]⟩ : Shape).Idx) (q : d.contr.Idx), (d.lhsIdx j q 0).val = (j 0).val := by
    intro j q; subst hd
    unfold DotDims.lhsIdx
    rw [dif_neg (show ¬(0 : Fin 2) ∈ ([] : List (Fin 2)) from List.not_mem_nil),
      dif_pos (show (0 : Fin 2) ∈ ([0] : List (Fin 2)) from List.mem_singleton.mpr rfl)]
    rfl
  have rcol : ∀ (j : (⟨2, ![M, N]⟩ : Shape).Idx) (q : d.contr.Idx), (d.rhsIdx j q 1).val = (j 1).val := by
    intro j q; subst hd
    unfold DotDims.rhsIdx
    rw [dif_neg (show ¬(1 : Fin 2) ∈ ([] : List (Fin 2)) from List.not_mem_nil),
      dif_pos (show (1 : Fin 2) ∈ ([1] : List (Fin 2)) from List.mem_singleton.mpr rfl)]
    rfl
  refine (Ideal.matmul_constant_zero_apply d prec l r (ix2 p n)).trans ?_
  rw [← Equiv.sum_comp (contrEquiv1 d K hr hs).symm]
  refine Finset.sum_congr rfl fun k _ => ?_
  have hk := contrEquiv1_symm_val d K hr hs k
  have el : d.lhsIdx (ix2 p n) ((contrEquiv1 d K hr hs).symm k) = ix2 p k :=
    funext fun a => Fin.ext (by
      match a with
      | ⟨0, _⟩ => exact lrow _ _
      | ⟨1, _⟩ => exact (d.lhsIdx_val_of_single hlc (ix2 p n) _).trans hk)
  have er : d.rhsIdx (ix2 p n) ((contrEquiv1 d K hr hs).symm k) = ix2 k n :=
    funext fun a => Fin.ext (by
      match a with
      | ⟨0, _⟩ => exact (d.rhsIdx_val_of_single hrc (ix2 p n) _).trans hk
      | ⟨1, _⟩ => exact rcol _ _)
  exact congrArg₂ (· * ·) (congrArg l el) (congrArg r er)

/-- The host's product of the same shape, read the same way. -/
theorem dotGeneral_plain_apply {φ₁ φ₂ : FTy} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (prec : Option ContractPrecision) (sched : HostSchedule)
    (l : FVec Ideal ⟨2, ![M, K]⟩ φ₁) (r : FVec Ideal ⟨2, ![K, N]⟩ φ₂) (p : Fin M) (n : Fin N) :
    FloatOps.dotGeneral d prec sched l r (ix2 p n)
      = ∑ k : Fin K, l (ix2 p k) * r (ix2 k n) := by
  obtain ⟨lc, rc, ln, rn, lb, rb, wf⟩ := d
  dsimp only at h1 h2 h3 h4 h5 h6
  subst h1 h2 h3 h4 h5 h6
  generalize hd : (⟨[1], [0], [0], [1], [], [], wf⟩ : DotDims ⟨2, ![M, K]⟩ ⟨2, ![K, N]⟩ ⟨2, ![M, N]⟩) = d
  have hr : d.contr.rank = 1 := by subst hd; rfl
  have hs : d.contr.size ⟨0, by rw [hr]; exact Nat.one_pos⟩ = K := by subst hd; rfl
  have hlc : d.lhsContracting = [1] := by subst hd; rfl
  have hrc : d.rhsContracting = [0] := by subst hd; rfl
  have lrow : ∀ (j : (⟨2, ![M, N]⟩ : Shape).Idx) (q : d.contr.Idx), (d.lhsIdx j q 0).val = (j 0).val := by
    intro j q; subst hd
    unfold DotDims.lhsIdx
    rw [dif_neg (show ¬(0 : Fin 2) ∈ ([] : List (Fin 2)) from List.not_mem_nil),
      dif_pos (show (0 : Fin 2) ∈ ([0] : List (Fin 2)) from List.mem_singleton.mpr rfl)]
    rfl
  have rcol : ∀ (j : (⟨2, ![M, N]⟩ : Shape).Idx) (q : d.contr.Idx), (d.rhsIdx j q 1).val = (j 1).val := by
    intro j q; subst hd
    unfold DotDims.rhsIdx
    rw [dif_neg (show ¬(1 : Fin 2) ∈ ([] : List (Fin 2)) from List.not_mem_nil),
      dif_pos (show (1 : Fin 2) ∈ ([1] : List (Fin 2)) from List.mem_singleton.mpr rfl)]
    rfl
  refine (Ideal.dotGeneral_apply d prec sched l r (ix2 p n)).trans ?_
  rw [← Equiv.sum_comp (contrEquiv1 d K hr hs).symm]
  refine Finset.sum_congr rfl fun k _ => ?_
  have hk := contrEquiv1_symm_val d K hr hs k
  have el : d.lhsIdx (ix2 p n) ((contrEquiv1 d K hr hs).symm k) = ix2 p k :=
    funext fun a => Fin.ext (by
      match a with
      | ⟨0, _⟩ => exact lrow _ _
      | ⟨1, _⟩ => exact (d.lhsIdx_val_of_single hlc (ix2 p n) _).trans hk)
  have er : d.rhsIdx (ix2 p n) ((contrEquiv1 d K hr hs).symm k) = ix2 k n :=
    funext fun a => Fin.ext (by
      match a with
      | ⟨0, _⟩ => exact (d.rhsIdx_val_of_single hrc (ix2 p n) _).trans hk
      | ⟨1, _⟩ => exact rcol _ _)
  exact congrArg₂ (· * ·) (congrArg l el) (congrArg r er)

end Cert.LibDenseEntry

end
-- ==== Proof.LibColumn.lean ====
/-
  Layout operations read at an index given by coordinates: the KEEP-DIMS COLUMN forms, beside the library's
  leading-unit-axis forms (Lib/ValueLayout.lean). A sum taken with its axis kept leaves a trailing unit axis: a vector
  `[a]` is cast to the column `[a, 1]`, a matrix `[a, b]` to `[a, b, 1]`, and such a column or trailing-unit block is then
  broadcast along the unit axis (`[a, 1]` to `[a, b]`, `[a, b, 1]` to `[a, b, c]`); a `[1, b, c]` block is broadcast down a
  new leading extent (`[1, b, c]` to `[a, b, c]`). Each lemma reads one such operation at an index written `ixN …`
  (Lib/ValueIdx.lean) as the operand at the index with the unit coordinate dropped or set to `0`; each is the parent
  lemma of Lib/Pipeline/Value.lean (`shapeCast_apply`, `broadcastTo_apply`) with the coordinates' arithmetic done.
-/
import Idealize.ShloMosaic.Lib.ValueLayout

namespace Cert.LibColumn

open Idealize.ShloMosaic Idealize.ShloMosaic.ValueIdx

variable {α : Type}

/-! ## A trailing unit axis added by a shape cast -/

/-- An `[a]` array cast to the column `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` cast to `[a]` reads, at `i`, the operand at `(i, 0)`. -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

/-- An `[a, b]` array cast to `[a, b, 1]` reads, at `(i, j, u)`, the operand at `(i, j)`, whatever the unit coordinate `u`. -/
theorem shapeCast_ab_ab1_apply {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    rw [hu, Nat.mul_one, Nat.add_zero])

/-! ## A unit axis broadcast -/

/-- A column `[a, 1]` broadcast to `[a, b]` reads, at `(i, j)`, the column at `(i, 0)`. -/
theorem broadcastTo_a1_ab_apply {a b : ℕ} (v : (⟨2, ![a, 1]⟩ : Shape).Idx → α) (h : (⟨2, ![a, 1]⟩ : Shape).Broadcasts ⟨2, ![a, b]⟩)
    (i : Fin a) (j : Fin b) : broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

/-- An `[a, b, 1]` block broadcast to `[a, b, c]` reads, at `(i, j, e)`, the block at `(i, j, 0)`. -/
theorem broadcastTo_ab1_abc_apply {a b c : ℕ} (v : (⟨3, ![a, b, 1]⟩ : Shape).Idx → α)
    (h : (⟨3, ![a, b, 1]⟩ : Shape).Broadcasts ⟨3, ![a, b, c]⟩) (i : Fin a) (j : Fin b) (e : Fin c) :
    broadcastTo ⟨3, ![a, b, c]⟩ v h (ix3 i j e) = v (ix3 i j (0 : Fin 1)) := by
  refine broadcastTo_apply v h (ix3 i j e) (ix3 i j (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ => rfl

/-- A `[1, b, c]` block broadcast to `[a, b, c]` reads, at `(p, i, j)`, the block at `(0, i, j)`. -/
theorem broadcastTo_1bc_abc_apply {a b c : ℕ} (v : (⟨3, ![1, b, c]⟩ : Shape).Idx → α)
    (h : (⟨3, ![1, b, c]⟩ : Shape).Broadcasts ⟨3, ![a, b, c]⟩) (p : Fin a) (i : Fin b) (j : Fin c) :
    broadcastTo ⟨3, ![a, b, c]⟩ v h (ix3 p i j) = v (ix3 (0 : Fin 1) i j) := by
  refine broadcastTo_apply v h (ix3 p i j) (ix3 (0 : Fin 1) i j) fun ax => ?_
  match ax with
  | ⟨0, _⟩ => rfl
  | ⟨1, _⟩ =>
    show i.val = if b = 1 then 0 else i.val
    split
    · have := i.isLt; omega
    · rfl
  | ⟨2, _⟩ =>
    show j.val = if c = 1 then 0 else j.val
    split
    · have := j.isLt; omega
    · rfl

end Cert.LibColumn
-- ==== Proof.Payload.lean ====
/-
  The two kernel bodies' arithmetic over the extended reals, read at an entry of the block they store.

  The normalisation body stores, at row p and column q of its block, the feature entry times the reciprocal square
  root of the row's degree floored at one.  The linear body stores the row's inner product with column q of the
  weight block, plus the bias entry of column q, times the reciprocal square root of the row's degree floored at
  one.  A change of float format is the identity on the extended reals, and the matrix unit's product into a zero
  accumulator is the plain sum over the contracted axis.
-/
import proofs.«177598_j53695681134706_2_alg».proof.Proof.Gen.KernelIdeal.Skeleton
import proofs.«177598_j53695681134706_2_alg».proof.Proof.LibDenseEntry
import proofs.«177598_j53695681134706_2_alg».proof.Proof.LibColumn
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Body

open Idealize.ShloMosaic Idealize.ShloMosaic.ValueIdx Cert.KernelIdeal Cert.KernelIdeal.Gen

/-- The float word of the constant one both bodies floor the degree at. -/
abbrev oneWord : BitVec 32 := 0x3F800000#32

/-- Entry (p, q) of what the normalisation body stores: x(p, q) · (max(d(p), 1))^(-1/2). -/
theorem norm_payload (d : Vec Ideal S10000x1 .bf16) (x : Vec Ideal S10000x64 .f32) (p : Fin 10000) (q : Fin 64) :
    k0_pay1 (F := Ideal) d x (ix2 p q)
      = x (ix2 p q) * Ideal.rsqrt (max (d (ix2 p (0 : Fin 1))) (Ideal.ofBits .f32 oneWord)) := by
  unfold k0_pay1
  simp only [shapeCast_self]
  show x (ix2 p q) * (broadcastTo S10000x64 _ broadcasts_S10000x1_S10000x64 (ix2 p q)) = _
  refine congrArg (x (ix2 p q) * ·) ?_
  refine (Cert.LibColumn.broadcastTo_a1_ab_apply _ broadcasts_S10000x1_S10000x64 p q).trans ?_
  rfl

/-- Entry (p, q) of what the linear body stores: (∑ₖ a(p, k) · w(k, q) + b(q)) · (max(d(p), 1))^(-1/2). -/
theorem dense_payload (a : Vec Ideal S4000x64 .f32) (w : Vec Ideal S64x64 .f32) (b : Vec Ideal S1x64 .f32)
    (d : Vec Ideal S4000x1 .bf16) (p : Fin 4000) (q : Fin 64) :
    k1_pay1 (F := Ideal) a w b d (ix2 p q)
      = ((∑ k : Fin 64, a (ix2 p k) * w (ix2 k q)) + b (ix2 (0 : Fin 1) q))
          * Ideal.rsqrt (max (d (ix2 p (0 : Fin 1))) (Ideal.ofBits .f32 oneWord)) := by
  unfold k1_pay1
  simp only [shapeCast_self]
  show (FloatOps.matmul (F := Ideal) dot_S4000x64_S64x64_S4000x64_1_0_0_1_n_n none _ _ (constant (F := Ideal) S4000x64 .f32 0x00000000#32) (ix2 p q)
        + broadcastTo S4000x64 b broadcasts_S1x64_S4000x64 (ix2 p q))
      * (broadcastTo S4000x64 _ broadcasts_S4000x1_S4000x64 (ix2 p q)) = _
  refine congrArg₂ (· * ·) (congrArg₂ (· + ·) ?_ ?_) ?_
  · exact Cert.LibDenseEntry.matmul_plain_zero_apply dot_S4000x64_S64x64_S4000x64_1_0_0_1_n_n rfl rfl rfl rfl rfl rfl none _ _ p q
  · exact broadcastTo_1b_ab_apply b broadcasts_S1x64_S4000x64 p q
  · refine (Cert.LibColumn.broadcastTo_a1_ab_apply _ broadcasts_S4000x1_S4000x64 p q).trans ?_
    rfl

end Cert.KernelIdeal.Body

end
-- ==== Proof.Spec.lean ====
/-
  One graph-convolution layer with symmetric degree normalisation, entry by entry over the extended reals.

  With N = 100000 nodes and 64 features: `normRows x d` scales row r of x by (max(d r, 1))^(-1/2); `denseRescale a w b d`
  is the dense layer a · w + b with row r scaled the same way by its own degree.  The column [N, 1] and the row [1, 64]
  that carry a length-N or length-64 vector through a keep-dims broadcast are read back by `colToVec` and `rowToVec`.
-/
import Idealize.ShloMosaic.PureOps.Ideal.Laws
import Idealize.ShloMosaic.Lib.ValueIdx
import Idealize.ShloMosaic.Lib.Pipeline.Value

noncomputable section

namespace Cert.GcnLayer

open Idealize.ShloMosaic Idealize.ShloMosaic.ValueIdx

/-- The float word of the constant one the degrees are floored at. -/
abbrev oneWord : BitVec 32 := 0x3F800000#32

/-- (max(d, 1))^(-1/2), the scale of a row of degree d. -/
def invSqrtDeg (d : EReal) : EReal := Ideal.rsqrt (max d (Ideal.ofBits .f32 oneWord))

abbrev SNxD : Shape := ⟨2, ![100000, 64]⟩
abbrev SN : Shape := ⟨1, ![100000]⟩
abbrev SNx1 : Shape := ⟨2, ![100000, 1]⟩
abbrev SDxD : Shape := ⟨2, ![64, 64]⟩
abbrev SD : Shape := ⟨1, ![64]⟩
abbrev S1xD : Shape := ⟨2, ![1, 64]⟩

/-- The row and the column of an entry, as literal-size coordinates. -/
abbrev rowOf (i : SNxD.Idx) : Fin 100000 := ⟨(i 0).val, (i 0).isLt⟩
abbrev colOf (i : SNxD.Idx) : Fin 64 := ⟨(i 1).val, (i 1).isLt⟩

/-- Row r of x scaled by (max(d r, 1))^(-1/2). -/
def normRows (x : SNxD.Idx → EReal) (d : SN.Idx → EReal) : SNxD.Idx → EReal :=
  fun i => x i * invSqrtDeg (d (ix1 (rowOf i)))

/-- (a · w + b)(r, q) scaled by (max(d r, 1))^(-1/2). -/
def denseRescale (a : SNxD.Idx → EReal) (w : SDxD.Idx → EReal) (b : SD.Idx → EReal) (d : SN.Idx → EReal) :
    SNxD.Idx → EReal :=
  fun i => ((∑ k : Fin 64, a (ix2 (rowOf i) k) * w (ix2 k (colOf i))) + b (ix1 (colOf i))) * invSqrtDeg (d (ix1 (rowOf i)))

/-- The vector a column [N, 1] carries. -/
def colToVec (v : SNx1.Idx → EReal) : SN.Idx → EReal := fun r => v (ix2 (⟨(r 0).val, (r 0).isLt⟩ : Fin 100000) (0 : Fin 1))

/-- The vector a row [1, 64] carries. -/
def rowToVec (v : S1xD.Idx → EReal) : SD.Idx → EReal := fun q => v (ix2 (0 : Fin 1) (⟨(q 0).val, (q 0).isLt⟩ : Fin 64))

theorem normRows_apply (x : SNxD.Idx → EReal) (d : SN.Idx → EReal) (r : Fin 100000) (q : Fin 64) :
    normRows x d (ix2 r q) = x (ix2 r q) * invSqrtDeg (d (ix1 r)) := rfl

theorem denseRescale_apply (a : SNxD.Idx → EReal) (w : SDxD.Idx → EReal) (b : SD.Idx → EReal) (d : SN.Idx → EReal)
    (r : Fin 100000) (q : Fin 64) :
    denseRescale a w b d (ix2 r q)
      = ((∑ k : Fin 64, a (ix2 r k) * w (ix2 k q)) + b (ix1 q)) * invSqrtDeg (d (ix1 r)) := rfl

theorem colToVec_apply (v : SNx1.Idx → EReal) (r : Fin 100000) : colToVec v (ix1 r) = v (ix2 r (0 : Fin 1)) := rfl

theorem rowToVec_apply (v : S1xD.Idx → EReal) (q : Fin 64) : rowToVec v (ix1 q) = v (ix2 (0 : Fin 1) q) := rfl

/-- A vector spread into a column by a broadcast along a new trailing axis is the vector the column carries. -/
theorem colToVec_broadcast (d : SN.Idx → EReal) (h : SN.BroadcastsInDim SNx1 ![0]) :
    colToVec (broadcastInDim SNx1 ![0] h d) = d := by
  funext r
  obtain ⟨r, rfl⟩ : ∃ r' : Fin 100000, r = ix1 r' := ⟨r 0, eq_ix1 r⟩
  rw [colToVec_apply]
  refine broadcastInDim_apply ![0] h d (ix2 r (0 : Fin 1)) (ix1 r) fun a => ?_
  match a with
  | ⟨0, _⟩ => show r.val = if (100000 : ℕ) = 1 then 0 else r.val; rw [if_neg (by decide)]

/-- A vector spread into a row by a broadcast along a new leading axis is the vector the row carries. -/
theorem rowToVec_broadcast (b : SD.Idx → EReal) (h : SD.BroadcastsInDim S1xD ![1]) :
    rowToVec (broadcastInDim S1xD ![1] h b) = b := by
  funext q
  obtain ⟨q, rfl⟩ : ∃ q' : Fin 64, q = ix1 q' := ⟨q 0, eq_ix1 q⟩
  rw [rowToVec_apply]
  refine broadcastInDim_apply ![1] h b (ix2 (0 : Fin 1) q) (ix1 q) fun a => ?_
  match a with
  | ⟨0, _⟩ => show q.val = if (64 : ℕ) = 1 then 0 else q.val; rw [if_neg (by decide)]

end Cert.GcnLayer

end
-- ==== Proof.Region1.lean ====
/-
  The second launch: the dense layer and the rescaling by the in-degree.

  Its twenty-five grid points each stage rows 4000·t … 4000·t + 3999 of the aggregated features and of the degree
  column, together with the whole weight matrix and the whole bias row, and write the same rows of the result back.
  An entry of a row block's product reads only that row, so block t of the result is block t of one whole-array
  function: (a · w + b)(r, q) scaled by (max(d r, 1))^(-1/2).  The twenty-five row blocks tile the array, so after
  the launch the array is that function, whatever the contents it is entered with.
-/
import proofs.«177598_j53695681134706_2_alg».proof.Proof.Gen.KernelIdeal.Frame
import proofs.«177598_j53695681134706_2_alg».proof.Proof.Payload
import proofs.«177598_j53695681134706_2_alg».proof.Proof.Spec
import Idealize.ShloMosaic.Lib.Pipeline.Value

set_option maxRecDepth 16384

noncomputable section

namespace Cert.KernelIdeal.Region1

open Cert.KernelIdeal Cert.KernelIdeal.Gen Cert.GcnLayer
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem zeros : (![0, 0] : Fin 2 → Nat) = fun _ => 0 := funext fun a => by fin_cases a <;> rfl

/-- Block t of the row-blocked windows starts at row block t and column block 0; the weight matrix and the bias row
    are staged whole at every point. -/
theorem index_facts : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0
    ∧ win1_4.index t (0 : Fin 2) = t.val ∧ win1_4.index t (1 : Fin 2) = 0 :=
  (by decide +kernel : ∀ t : Fin grid1.N, _)

/-- Entry (p, q) of the stored block is entry (r, q) of the rescaled dense layer when the staged blocks hold row r of
    the aggregated features and of the degree column at their rows p, and the whole weight matrix and bias row. -/
theorem block_entry (a : Vec Ideal S4000x64 .f32) (w : Vec Ideal S64x64 .f32) (b : Vec Ideal S1x64 .f32)
    (d : Vec Ideal S4000x1 .bf16)
    (A : SNxD.Idx → EReal) (Wm : SDxD.Idx → EReal) (B : S1xD.Idx → EReal) (D : SNx1.Idx → EReal)
    (y : S4000x64.Idx) (i : SNxD.Idx) (p : Fin 4000) (q : Fin 64) (r : Fin 100000)
    (hy : y = ix2 p q) (hi : i = ix2 r q)
    (ha : ∀ k : Fin 64, a (ix2 p k) = A (ix2 r k)) (hw : ∀ k : Fin 64, w (ix2 k q) = Wm (ix2 k q))
    (hb : b (ix2 (0 : Fin 1) q) = B (ix2 (0 : Fin 1) q)) (hd : d (ix2 p (0 : Fin 1)) = D (ix2 r (0 : Fin 1))) :
    k1_pay1 (F := Ideal) a w b d y = denseRescale A Wm (rowToVec B) (colToVec D) i := by
  subst hy hi
  rw [Cert.KernelIdeal.Body.dense_payload]
  simp only [ha, hw, hb, hd]
  rfl

/-- What point t writes back is block t of the rescaled dense layer. -/
theorem flushed_eq (c : Dev nD) (t : Fin cfg1.N) :
    (dat1 V c).flushed 4 t
      = ((cfg1.win 4).blk t).view.read (Elt Ideal)
          (denseRescale (V c main_v22) (V c main_v23) (rowToVec (V c main_v24)) (colToVec (V c main_v10))) := by
  show (cfg1.win 4).cut (grid1.coords t) ((dat1 V c).after 4 t) = _
  rw [after1_4]
  unfold out1_4
  rw [View.canon_unit_zero zeros]
  simp only [View.ld_unit_zero (S := S4000x64) zeros, View.ld_unit_zero (S := S64x64) zeros,
    View.ld_unit_zero (S := S1x64) zeros, View.ld_unit_zero (S := S4000x1) zeros]
  obtain ⟨e0, e1, e2, e3, e4, e5, e6, e7, e8, e9⟩ := index_facts t
  have ht : t.val < 25 := lt_of_lt_of_eq t.isLt (show cfg1.N = 25 from N_1)
  funext j
  have hj0 : (j 0).val < 4000 := (j 0).isLt
  have hj1 : (j 1).val < 64 := (j 1).isLt
  refine block_entry (iblk1 V c 0 t) (iblk1 V c 1 t) (iblk1 V c 2 t) (iblk1 V c 3 t)
    (V c main_v22) (V c main_v23) (V c main_v24) (V c main_v10) _ _
    ⟨(j 0).val, hj0⟩ ⟨(j 1).val, hj1⟩ ⟨t.val * 4000 + (j 0).val, by omega⟩ ?_ ?_ ?_ ?_ ?_ ?_
  · funext a
    match a with
    | ⟨0, _⟩ => rfl
    | ⟨1, _⟩ => rfl
  · funext a; apply Fin.ext
    match a with
    | ⟨0, _⟩ => show win1_4.index t (0 : Fin 2) * 4000 + 1 * (j 0).val = t.val * 4000 + (j 0).val; omega
    | ⟨1, _⟩ => show win1_4.index t (1 : Fin 2) * 64 + 1 * (j 1).val = (j 1).val; omega
  · intro k
    show V c main_v22 (((cfg1.win 0).blk t).view.emb (ix2 ⟨(j 0).val, hj0⟩ k)) = V c main_v22 _
    refine congrArg (V c main_v22) (funext fun a => Fin.ext ?_)
    match a with
    | ⟨0, _⟩ => show win1_0.index t (0 : Fin 2) * 4000 + 1 * (j 0).val = t.val * 4000 + (j 0).val; omega
    | ⟨1, _⟩ => show win1_0.index t (1 : Fin 2) * 64 + 1 * k.val = k.val; omega
  · intro k
    show V c main_v23 (((cfg1.win 1).blk t).view.emb (ix2 k ⟨(j 1).val, hj1⟩)) = V c main_v23 _
    refine congrArg (V c main_v23) (funext fun a => Fin.ext ?_)
    match a with
    | ⟨0, _⟩ => show win1_1.index t (0 : Fin 2) * 64 + 1 * k.val = k.val; omega
    | ⟨1, _⟩ => show win1_1.index t (1 : Fin 2) * 64 + 1 * (j 1).val = (j 1).val; omega
  · show V c main_v24 (((cfg1.win 2).blk t).view.emb (ix2 (0 : Fin 1) ⟨(j 1).val, hj1⟩)) = V c main_v24 _
    refine congrArg (V c main_v24) (funext fun a => Fin.ext ?_)
    match a with
    | ⟨0, _⟩ => show win1_2.index t (0 : Fin 2) * 1 + 1 * 0 = 0; omega
    | ⟨1, _⟩ => show win1_2.index t (1 : Fin 2) * 64 + 1 * (j 1).val = (j 1).val; omega
  · show V c main_v10 (((cfg1.win 3).blk t).view.emb (ix2 ⟨(j 0).val, hj0⟩ (0 : Fin 1))) = V c main_v10 _
    refine congrArg (V c main_v10) (funext fun a => Fin.ext ?_)
    match a with
    | ⟨0, _⟩ => show win1_3.index t (0 : Fin 2) * 4000 + 1 * (j 0).val = t.val * 4000 + (j 0).val; omega
    | ⟨1, _⟩ => show win1_3.index t (1 : Fin 2) * 1 + 1 * 0 = 0; omega

/-- An index of the array is in point t's block iff each coordinate is in the block's range on its axis. -/
theorem mem_blk (t : Fin cfg1.N) (i : S100000x64.Idx) :
    i ∈ ((cfg1.win 4).blk t).view.set ↔ ∀ a : Fin 2, win1_4.index t a * S4000x64.size a ≤ (i a).val
      ∧ (i a).val < win1_4.index t a * S4000x64.size a + S4000x64.size a := by
  show i ∈ ((View.whole main_v25).slice (win1_4.rect t)).set ↔ _
  rw [View.set_slice_whole, Rect.mem_set_unit]
  exact Iff.rfl

/-- Row r lies in the block of point r / 4000: the twenty-five blocks cover the array. -/
theorem cover (i : S100000x64.Idx) :
    ∃ t : Fin cfg1.N, (cfg1.win 4).flush t = true ∧ i ∈ ((cfg1.win 4).blk t).view.set := by
  have hi0 : (i 0).val < 100000 := (i 0).isLt
  have hi1 : (i 1).val < 64 := (i 1).isLt
  have hN : cfg1.N = 25 := N_1
  let t : Fin cfg1.N := ⟨(i 0).val / 4000, by rw [hN]; omega⟩
  obtain ⟨e0, e1, e2, e3, e4, e5, e6, e7, e8, e9⟩ := index_facts t
  have htv : t.val = (i 0).val / 4000 := rfl
  refine ⟨t, flush1_4 t, ?_⟩
  rw [mem_blk]
  intro a
  match a with
  | ⟨0, _⟩ =>
    show win1_4.index t (0 : Fin 2) * 4000 ≤ (i 0).val ∧ (i 0).val < win1_4.index t (0 : Fin 2) * 4000 + 4000
    omega
  | ⟨1, _⟩ =>
    show win1_4.index t (1 : Fin 2) * 64 ≤ (i 1).val ∧ (i 1).val < win1_4.index t (1 : Fin 2) * 64 + 64
    omega

/-- After the launch the result array is the rescaled dense layer of the four operand arrays as entered. -/
theorem final (c : Dev nD) :
    (dat1 V c).arrAt 4 cfg1.N
      = denseRescale (V c main_v22) (V c main_v23) (rowToVec (V c main_v24)) (colToVec (V c main_v10)) :=
  (dat1 V c).arrAt_eq_of_cover 4
    (denseRescale (V c main_v22) (V c main_v23) (rowToVec (V c main_v24)) (colToVec (V c main_v10)))
    (fun t _ => flushed_eq V c t) cover

end Cert.KernelIdeal.Region1

end
-- ==== Proof.Region0.lean ====
/-
  The first launch: the normalised features.

  Its ten grid points each stage rows 10000·t … 10000·t + 9999 of the feature array and of the degree column and
  write the same rows of the result back, so block t of the result is block t of one whole-array function: row r of
  the features scaled by (max(d r, 1))^(-1/2).  The ten row blocks tile the array, so after the launch the array is
  that function, whatever the contents it is entered with.
-/
import proofs.«177598_j53695681134706_2_alg».proof.Proof.Gen.KernelIdeal.Frame
import proofs.«177598_j53695681134706_2_alg».proof.Proof.Payload
import proofs.«177598_j53695681134706_2_alg».proof.Proof.Spec
import Idealize.ShloMosaic.Lib.Pipeline.Value

set_option maxRecDepth 16384

noncomputable section

namespace Cert.KernelIdeal.Region0

open Cert.KernelIdeal Cert.KernelIdeal.Gen Cert.GcnLayer
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem zeros : (![0, 0] : Fin 2 → Nat) = fun _ => 0 := funext fun a => by fin_cases a <;> rfl

/-- Block t of every window starts at row block t and column block 0. -/
theorem index_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0 :=
  (by decide +kernel : ∀ t : Fin grid0.N, _)

/-- Entry (p, q) of the stored block is entry (r, q) of the normalised array when the staged blocks hold rows r of
    the features and of the degree column at their rows p. -/
theorem block_entry (d : Vec Ideal S10000x1 .bf16) (x : Vec Ideal S10000x64 .f32)
    (X : SNxD.Idx → EReal) (D : SNx1.Idx → EReal) (y : S10000x64.Idx) (i : SNxD.Idx)
    (p : Fin 10000) (q : Fin 64) (r : Fin 100000) (hy : y = ix2 p q) (hi : i = ix2 r q)
    (hx : x (ix2 p q) = X (ix2 r q)) (hd : d (ix2 p (0 : Fin 1)) = D (ix2 r (0 : Fin 1))) :
    k0_pay1 (F := Ideal) d x y = normRows X (colToVec D) i := by
  subst hy hi
  rw [Cert.KernelIdeal.Body.norm_payload, hx, hd]
  rfl

/-- What point t writes back is block t of the normalised array. -/
theorem flushed_eq (c : Dev nD) (t : Fin cfg0.N) :
    (dat0 V c).flushed 2 t
      = ((cfg0.win 2).blk t).view.read (Elt Ideal) (normRows (V c main_arg0) (colToVec (V c main_v8))) := by
  show (cfg0.win 2).cut (grid0.coords t) ((dat0 V c).after 2 t) = _
  rw [after0_2]
  unfold out0_2
  rw [View.canon_unit_zero zeros]
  simp only [View.ld_unit_zero (S := S10000x64) zeros, View.ld_unit_zero (S := S10000x1) zeros]
  obtain ⟨e0, e1, e2, e3, e4, e5⟩ := index_facts t
  have ht : t.val < 10 := lt_of_lt_of_eq t.isLt (show cfg0.N = 10 from N_0)
  funext j
  have hj0 : (j 0).val < 10000 := (j 0).isLt
  have hj1 : (j 1).val < 64 := (j 1).isLt
  refine block_entry (iblk0 V c 1 t) (iblk0 V c 0 t) (V c main_arg0) (V c main_v8) _ _
    ⟨(j 0).val, hj0⟩ ⟨(j 1).val, hj1⟩ ⟨t.val * 10000 + (j 0).val, by omega⟩ ?_ ?_ ?_ ?_
  · funext a
    match a with
    | ⟨0, _⟩ => rfl
    | ⟨1, _⟩ => rfl
  · funext a; apply Fin.ext
    match a with
    | ⟨0, _⟩ => show win0_2.index t (0 : Fin 2) * 10000 + 1 * (j 0).val = t.val * 10000 + (j 0).val; omega
    | ⟨1, _⟩ => show win0_2.index t (1 : Fin 2) * 64 + 1 * (j 1).val = (j 1).val; omega
  · show V c main_arg0 (((cfg0.win 0).blk t).view.emb (ix2 ⟨(j 0).val, hj0⟩ ⟨(j 1).val, hj1⟩)) = V c main_arg0 _
    refine congrArg (V c main_arg0) (funext fun a => Fin.ext ?_)
    match a with
    | ⟨0, _⟩ => show win0_0.index t (0 : Fin 2) * 10000 + 1 * (j 0).val = t.val * 10000 + (j 0).val; omega
    | ⟨1, _⟩ => show win0_0.index t (1 : Fin 2) * 64 + 1 * (j 1).val = (j 1).val; omega
  · show V c main_v8 (((cfg0.win 1).blk t).view.emb (ix2 ⟨(j 0).val, hj0⟩ (0 : Fin 1))) = V c main_v8 _
    refine congrArg (V c main_v8) (funext fun a => Fin.ext ?_)
    match a with
    | ⟨0, _⟩ => show win0_1.index t (0 : Fin 2) * 10000 + 1 * (j 0).val = t.val * 10000 + (j 0).val; omega
    | ⟨1, _⟩ => show win0_1.index t (1 : Fin 2) * 1 + 1 * 0 = 0; omega

/-- An index of the array is in point t's block iff each coordinate is in the block's range on its axis. -/
theorem mem_blk (t : Fin cfg0.N) (i : S100000x64.Idx) :
    i ∈ ((cfg0.win 2).blk t).view.set ↔ ∀ a : Fin 2, win0_2.index t a * S10000x64.size a ≤ (i a).val
      ∧ (i a).val < win0_2.index t a * S10000x64.size a + S10000x64.size a := by
  show i ∈ ((View.whole main_v11).slice (win0_2.rect t)).set ↔ _
  rw [View.set_slice_whole, Rect.mem_set_unit]
  exact Iff.rfl

/-- Row r lies in the block of point r / 10000: the ten blocks cover the array. -/
theorem cover (i : S100000x64.Idx) :
    ∃ t : Fin cfg0.N, (cfg0.win 2).flush t = true ∧ i ∈ ((cfg0.win 2).blk t).view.set := by
  have hi0 : (i 0).val < 100000 := (i 0).isLt
  have hi1 : (i 1).val < 64 := (i 1).isLt
  have hN : cfg0.N = 10 := N_0
  let t : Fin cfg0.N := ⟨(i 0).val / 10000, by rw [hN]; omega⟩
  obtain ⟨e0, e1, e2, e3, e4, e5⟩ := index_facts t
  have htv : t.val = (i 0).val / 10000 := rfl
  refine ⟨t, flush0_2 t, ?_⟩
  rw [mem_blk]
  intro a
  match a with
  | ⟨0, _⟩ =>
    show win0_2.index t (0 : Fin 2) * 10000 ≤ (i 0).val ∧ (i 0).val < win0_2.index t (0 : Fin 2) * 10000 + 10000
    omega
  | ⟨1, _⟩ =>
    show win0_2.index t (1 : Fin 2) * 64 ≤ (i 1).val ∧ (i 1).val < win0_2.index t (1 : Fin 2) * 64 + 64
    omega

/-- After the launch the result array is the normalised array of the features and the degree column as entered. -/
theorem final (c : Dev nD) :
    (dat0 V c).arrAt 2 cfg0.N = normRows (V c main_arg0) (colToVec (V c main_v8)) :=
  (dat0 V c).arrAt_eq_of_cover 2 (normRows (V c main_arg0) (colToVec (V c main_v8)))
    (fun t _ => flushed_eq V c t) cover

end Cert.KernelIdeal.Region0

end
-- ==== Proof.Stretch0.lean ====
/-
  The program up to the second stretch of host operations, read buffer by buffer.

  The first stretch counts, for every node, the edges that leave it and the edges that enter it (an accumulating
  scatter of ones at the edge's source, and at its target), and carries each vector of counts as a column.  The first
  launch then leaves the features with row r scaled by (max(out-degree r, 1))^(-1/2); nothing else it touches changes.
  So when the second stretch begins, the normalised features are `normRows` of the launch arguments, the in-degree
  column is the count column, and the five arguments are as launched.
-/
import proofs.«177598_j53695681134706_2_alg».proof.Proof.Gen.KernelIdeal.Frame
import proofs.«177598_j53695681134706_2_alg».proof.Proof.Region0
import proofs.«177598_j53695681134706_2_alg».proof.Proof.Spec
import Idealize.ShloMosaic.Lib.StableHlo.Run

set_option maxRecDepth 16384

noncomputable section

namespace Cert.KernelIdeal.Stretch0

open Cert.KernelIdeal Cert.KernelIdeal.Gen Cert.GcnLayer
open Idealize.ShloMosaic Idealize.ShloMosaic.TcCoe Idealize.ShloMosaic.ValueIdx Idealize.SL.Sem
open Idealize.ShloMosaic.StableHlo

/-- For every node, how many entries of an index vector name it: an accumulating scatter of ones into zeros. -/
def counts (idx : (⟨S1600000, .i32⟩ : BufTy).Contents (Elt Ideal)) : (⟨S100000, .f32⟩ : BufTy).Contents (Elt Ideal) :=
  Host.scatterAdd (F := Ideal) scatter_S100000_S1600000x1_S1600000_n_0_0_1
    (broadcastInDim S100000 ![] bcast_S_S100000 (constant (F := Ideal) S_ .f32 0x00000000#32))
    (broadcastInDim S1600000x1 ![0] bcast_S1600000_S1600000x1_0 idx)
    (broadcastInDim S1600000 ![] bcast_S_S1600000 (constant (F := Ideal) S_ .f32 0x3F800000#32))

/-- A vector of counts carried as a column in the narrower float format (the same extended reals). -/
def countColumn (idx : (⟨S1600000, .i32⟩ : BufTy).Contents (Elt Ideal)) : (⟨S100000x1, .bf16⟩ : BufTy).Contents (Elt Ideal) :=
  truncf (F := Ideal) .bf16 (broadcastInDim S100000x1 ![0] bcast_S100000_S100000x1_0 (counts idx)) bitsLt_bf16_f32

/-- The vector a count column carries is the vector of counts. -/
theorem colToVec_countColumn (idx : (⟨S1600000, .i32⟩ : BufTy).Contents (Elt Ideal)) :
    colToVec (countColumn idx) = counts idx :=
  colToVec_broadcast (counts idx) bcast_S100000_S100000x1_0

variable (m : (ℓ : Loc nD τ sig) → Buf (Elt Ideal) ℓ) (ρ : Dev nD → PrngReg)

/-! ## After the first stretch -/

theorem entry_arg0 (c : Dev nD) : W1 m ρ c (Proc.devRef .tc main_arg0) = m ((c : Thread nD τ).loc main_arg0) := by
  show StableHlo.after hostOps0 (W0 m ρ c) (Proc.devRef .tc main_arg0) = _
  after_results
theorem entry_arg1 (c : Dev nD) : W1 m ρ c (Proc.devRef .tc main_arg1) = m ((c : Thread nD τ).loc main_arg1) := by
  show StableHlo.after hostOps0 (W0 m ρ c) (Proc.devRef .tc main_arg1) = _
  after_results
theorem entry_arg2 (c : Dev nD) : W1 m ρ c (Proc.devRef .tc main_arg2) = m ((c : Thread nD τ).loc main_arg2) := by
  show StableHlo.after hostOps0 (W0 m ρ c) (Proc.devRef .tc main_arg2) = _
  after_results
theorem entry_arg3 (c : Dev nD) : W1 m ρ c (Proc.devRef .tc main_arg3) = m ((c : Thread nD τ).loc main_arg3) := by
  show StableHlo.after hostOps0 (W0 m ρ c) (Proc.devRef .tc main_arg3) = _
  after_results
theorem entry_arg4 (c : Dev nD) : W1 m ρ c (Proc.devRef .tc main_arg4) = m ((c : Thread nD τ).loc main_arg4) := by
  show StableHlo.after hostOps0 (W0 m ρ c) (Proc.devRef .tc main_arg4) = _
  after_results

/-- The out-degree column. -/
theorem entry_v8 (c : Dev nD) :
    W1 m ρ c (Proc.devRef .tc main_v8) = countColumn (m ((c : Thread nD τ).loc main_arg1)) := by
  show StableHlo.after hostOps0 (W0 m ρ c) (Proc.devRef .tc main_v8) = _
  after_results; rfl

/-- The in-degree column. -/
theorem entry_v10 (c : Dev nD) :
    W1 m ρ c (Proc.devRef .tc main_v10) = countColumn (m ((c : Thread nD τ).loc main_arg2)) := by
  show StableHlo.after hostOps0 (W0 m ρ c) (Proc.devRef .tc main_v10) = _
  after_results; rfl

/-! ## After the first launch -/

/-- The normalised features. -/
theorem exit_v11 (c : Dev nD) :
    W2 m ρ c (Proc.devRef .tc main_v11)
      = normRows (m ((c : Thread nD τ).loc main_arg0)) (counts (m ((c : Thread nD τ).loc main_arg1))) := by
  refine (W2_arr m ρ c 2).trans ((Cert.KernelIdeal.Region0.final (V1 m ρ) c).trans ?_)
  show normRows (W1 m ρ c (Proc.devRef .tc main_arg0)) (colToVec (W1 m ρ c (Proc.devRef .tc main_v8))) = _
  rw [entry_arg0, entry_v8, colToVec_countColumn]

theorem exit_arg1 (c : Dev nD) : W2 m ρ c (Proc.devRef .tc main_arg1) = m ((c : Thread nD τ).loc main_arg1) :=
  (W2_of_ne m ρ c main_arg1 (by decide)).trans (entry_arg1 m ρ c)
theorem exit_arg2 (c : Dev nD) : W2 m ρ c (Proc.devRef .tc main_arg2) = m ((c : Thread nD τ).loc main_arg2) :=
  (W2_of_ne m ρ c main_arg2 (by decide)).trans (entry_arg2 m ρ c)
theorem exit_arg3 (c : Dev nD) : W2 m ρ c (Proc.devRef .tc main_arg3) = m ((c : Thread nD τ).loc main_arg3) :=
  (W2_of_ne m ρ c main_arg3 (by decide)).trans (entry_arg3 m ρ c)
theorem exit_arg4 (c : Dev nD) : W2 m ρ c (Proc.devRef .tc main_arg4) = m ((c : Thread nD τ).loc main_arg4) :=
  (W2_of_ne m ρ c main_arg4 (by decide)).trans (entry_arg4 m ρ c)
theorem exit_v10 (c : Dev nD) :
    W2 m ρ c (Proc.devRef .tc main_v10) = countColumn (m ((c : Thread nD τ).loc main_arg2)) :=
  (W2_of_ne m ρ c main_v10 (by decide)).trans (entry_v10 m ρ c)

end Cert.KernelIdeal.Stretch0

end
-- ==== Proof.Stretch1.lean ====
/-
  The second stretch of host operations, read buffer by buffer from the contents it is entered with.

  It gathers, for every edge, the normalised feature row of the edge's source (a negative source index wrapped
  around once) and accumulates the rows at the edge's target; it transposes the weight matrix and makes the bias a
  row.  The in-degree column is not touched.
-/
import proofs.«177598_j53695681134706_2_alg».proof.Proof.Gen.KernelIdeal.Frame
import Idealize.ShloMosaic.Lib.StableHlo.Run
import Idealize.ShloMosaic.PureOps.Ideal

set_option maxRecDepth 16384

noncomputable section

namespace Cert.KernelIdeal.Stretch1

open Cert.KernelIdeal Cert.KernelIdeal.Gen
open Idealize.ShloMosaic Idealize.ShloMosaic.TcCoe Idealize.SL.Sem
open Idealize.ShloMosaic.StableHlo

/-- An index vector with every negative entry moved up by the number of nodes. -/
def wrapped (idx : (⟨S1600000, .i32⟩ : BufTy).Contents (Elt Ideal)) : (⟨S1600000, .i32⟩ : BufTy).Contents (Elt Ideal) :=
  select (cmpi .slt idx (broadcastInDim S1600000 ![] bcast_S_S1600000 (constantI S_ 32 0#32)))
    (addi idx (broadcastInDim S1600000 ![] bcast_S_S1600000 (constantI S_ 32 100000#32))) idx

/-- The rows of h gathered at the wrapped sources and accumulated at the targets, from zero. -/
def aggregate (h : (⟨S100000x64, .bf16⟩ : BufTy).Contents (Elt Ideal))
    (src dst : (⟨S1600000, .i32⟩ : BufTy).Contents (Elt Ideal)) : (⟨S100000x64, .f32⟩ : BufTy).Contents (Elt Ideal) :=
  Host.scatterAdd (F := Ideal) scatter_S100000x64_S1600000x1_S1600000x64_1_0_0_1
    (broadcastInDim S100000x64 ![] bcast_S_S100000x64 (constant (F := Ideal) S_ .f32 0x00000000#32))
    (broadcastInDim S1600000x1 ![0] bcast_S1600000_S1600000x1_0 dst)
    (extf (F := Ideal) .f32 (Host.gather gather_S100000x64_S1600000x1_S1600000x64_1_0_n_n_0_1_164 h
      (broadcastInDim S1600000x1 ![0] bcast_S1600000_S1600000x1_0 (wrapped src))) bitsLt_bf16_f32)

variable (m : (ℓ : Loc nD τ sig) → Buf (Elt Ideal) ℓ) (ρ : Dev nD → PrngReg)

/-- The aggregated features. -/
theorem entry_v22 (c : Dev nD) :
    V3 m ρ c main_v22
      = aggregate (W2 m ρ c (Proc.devRef .tc main_v11)) (W2 m ρ c (Proc.devRef .tc main_arg1))
          (W2 m ρ c (Proc.devRef .tc main_arg2)) := by
  show StableHlo.after hostOps1 (W2 m ρ c) (Proc.devRef .tc main_v22) = _
  after_results; rfl

/-- The transposed weights. -/
theorem entry_v23 (c : Dev nD) :
    V3 m ρ c main_v23
      = transpose S64x64 [1, 0] (W2 m ρ c (Proc.devRef .tc main_arg3)) transposes_S64x64_S64x64_1_0 := by
  show StableHlo.after hostOps1 (W2 m ρ c) (Proc.devRef .tc main_v23) = _
  after_results

/-- The bias as a row. -/
theorem entry_v24 (c : Dev nD) :
    V3 m ρ c main_v24
      = broadcastInDim S1x64 ![1] bcast_S64_S1x64_1 (W2 m ρ c (Proc.devRef .tc main_arg4)) := by
  show StableHlo.after hostOps1 (W2 m ρ c) (Proc.devRef .tc main_v24) = _
  after_results

/-- The in-degree column, untouched. -/
theorem entry_v10 (c : Dev nD) :
    V3 m ρ c main_v10 = W2 m ρ c (Proc.devRef .tc main_v10) := by
  show StableHlo.after hostOps1 (W2 m ρ c) (Proc.devRef .tc main_v10) = _
  after_results

end Cert.KernelIdeal.Stretch1

end
-- ==== Proof.KValue.lean ====
/-
  What the kernel program computes, as one function of its five arguments over the extended reals.

  The result array is the dense layer with in-degree rescaling, applied to the edge aggregation of the
  out-degree-normalised features: `layerTerm`.  The second launch leaves `denseRescale` of its four operand arrays as
  it finds them; the second stretch of host operations makes those from the first launch's result and the arguments;
  the first launch leaves `normRows` of the features and the out-degree counts.
-/
import proofs.«177598_j53695681134706_2_alg».proof.Proof.KRun
import proofs.«177598_j53695681134706_2_alg».proof.Proof.Region1
import proofs.«177598_j53695681134706_2_alg».proof.Proof.Stretch0
import proofs.«177598_j53695681134706_2_alg».proof.Proof.Stretch1

set_option maxRecDepth 16384

noncomputable section

namespace Cert.KernelIdeal.Value

open Cert.KernelIdeal Cert.KernelIdeal.Gen Cert.GcnLayer Cert.KernelIdeal.Stretch0 Cert.KernelIdeal.Stretch1
open Idealize.ShloMosaic Idealize.ShloMosaic.TcCoe Idealize.SL.Sem

/-- The layer: features x0, edge sources x1, edge targets x2, weights x3, bias x4. -/
def layerTerm (x0 : (⟨S100000x64, .f32⟩ : BufTy).Contents (Elt Ideal))
    (x1 x2 : (⟨S1600000, .i32⟩ : BufTy).Contents (Elt Ideal)) (x3 : (⟨S64x64, .f32⟩ : BufTy).Contents (Elt Ideal))
    (x4 : (⟨S64, .f32⟩ : BufTy).Contents (Elt Ideal)) : (⟨S100000x64, .f32⟩ : BufTy).Contents (Elt Ideal) :=
  denseRescale (aggregate (normRows x0 (counts x1)) x1 x2)
    (transpose S64x64 [1, 0] x3 transposes_S64x64_S64x64_1_0) x4 (counts x2)

variable (m : (ℓ : Loc nD τ sig) → Buf (Elt Ideal) ℓ) (ρ : Dev nD → PrngReg)

/-- The result array at the last segment boundary is the layer of the launch arguments. -/
theorem result_eq (c : Dev nD) :
    W4 m ρ c (Proc.devRef .tc main_v25)
      = layerTerm (m ((c : Thread nD τ).loc main_arg0)) (m ((c : Thread nD τ).loc main_arg1))
          (m ((c : Thread nD τ).loc main_arg2)) (m ((c : Thread nD τ).loc main_arg3)) (m ((c : Thread nD τ).loc main_arg4)) := by
  have h4 := W4_arr m ρ c 4
  rw [Cert.KernelIdeal.Region1.final, entry_v22, entry_v23, entry_v24, Stretch1.entry_v10, exit_v11, exit_arg1, exit_arg2,
    exit_arg3, exit_arg4, exit_v10, colToVec_countColumn, rowToVec_broadcast] at h4
  exact h4

/-- The run, read: the result array at the layer of the launch arguments, the arguments unchanged. -/
theorem run : θ_run defs (onTc (τ := τ) (main (F := Ideal))) ⟨m, fun _ => 0, ρ⟩ (fun r => ∀ c : Dev nD,
      r.2.mem ((c.tc : Thread nD τ).loc main_v25)
        = layerTerm (m ((c : Thread nD τ).loc main_arg0)) (m ((c : Thread nD τ).loc main_arg1))
            (m ((c : Thread nD τ).loc main_arg2)) (m ((c : Thread nD τ).loc main_arg3)) (m ((c : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c => ⟨(h c).1.trans (result_eq m ρ c), (h c).2⟩)
    (Cert.KernelIdeal.Whole.run_main (F := Ideal) m ρ)

end Cert.KernelIdeal.Value

end
-- ==== Proof.RefStages.lean ====
/-
  The reference's two dense stages as the layer's functions, entry by entry over the extended reals.

  Its normalised features `x · rsqrt(max(1, deg))[:, None]` are `normRows` of the features and the out-degree counts, and
  its result `(agg · Wᵀ + b) · rsqrt(max(1, deg))[:, None]` is `denseRescale` of the aggregated features, the transposed
  weights, the bias and the in-degree counts: the two broadcasts that carry a per-row scale to every column read the
  row's entry, the two that carry the bias to every row read the column's entry, the host's product is the plain sum
  over the contracted axis, and max is symmetric.
-/
import proofs.«177598_j53695681134706_2_alg».proof.Proof.Gen.ReferenceIdeal.Read
import proofs.«177598_j53695681134706_2_alg».proof.Proof.Spec

noncomputable section

namespace Cert.ReferenceIdeal.Stages

open Cert.ReferenceIdeal Cert.ReferenceIdeal.Gen Cert.ReferenceIdeal.Read Cert.GcnLayer
open Idealize.ShloMosaic Idealize.ShloMosaic.ValueIdx

/-- The per-row scale the reference computes from a vector of counts, read at any column. -/
theorem scale_entry (v one : FVec Ideal S100000 .f32)
    (hone : ∀ r : Fin 100000, one (ix1 r) = Ideal.ofBits .f32 oneWord) (r : Fin 100000) (q : Fin 64) :
    broadcastInDim S100000x64 ![0, 1] bcast_S100000x1_S100000x64_0_1
        (broadcastInDim S100000x1 ![0] bcast_S100000_S100000x1_0 (Host.rsqrt (F := Ideal) (maximumf (F := Ideal) one v))) (ix2 r q)
      = invSqrtDeg (v (ix1 r)) := by
  have e2 : broadcastInDim S100000x64 ![0, 1] bcast_S100000x1_S100000x64_0_1
        (broadcastInDim S100000x1 ![0] bcast_S100000_S100000x1_0 (Host.rsqrt (F := Ideal) (maximumf (F := Ideal) one v))) (ix2 r q)
      = broadcastInDim S100000x1 ![0] bcast_S100000_S100000x1_0 (Host.rsqrt (F := Ideal) (maximumf (F := Ideal) one v)) (ix2 r (0 : Fin 1)) := by
    refine broadcastInDim_apply ![0, 1] bcast_S100000x1_S100000x64_0_1 _ (ix2 r q) (ix2 r (0 : Fin 1)) fun a => ?_
    match a with
    | ⟨0, _⟩ => show r.val = if (100000 : ℕ) = 1 then 0 else r.val; rw [if_neg (by decide)]
    | ⟨1, _⟩ => show (0 : ℕ) = if (1 : ℕ) = 1 then 0 else q.val; rw [if_pos rfl]
  have e1 : broadcastInDim S100000x1 ![0] bcast_S100000_S100000x1_0 (Host.rsqrt (F := Ideal) (maximumf (F := Ideal) one v)) (ix2 r (0 : Fin 1))
      = Host.rsqrt (F := Ideal) (maximumf (F := Ideal) one v) (ix1 r) := by
    refine broadcastInDim_apply ![0] bcast_S100000_S100000x1_0 _ (ix2 r (0 : Fin 1)) (ix1 r) fun a => ?_
    match a with
    | ⟨0, _⟩ => show r.val = if (100000 : ℕ) = 1 then 0 else r.val; rw [if_neg (by decide)]
  rw [e2, e1]
  show Ideal.rsqrt (max (one (ix1 r)) (v (ix1 r))) = Ideal.rsqrt (max (v (ix1 r)) (Ideal.ofBits .f32 oneWord))
  rw [hone r, max_comm]

/-- The constant one spread over the nodes reads one everywhere. -/
theorem ones_entry (r : Fin 100000) :
    broadcastInDim S100000 ![] bcast_S_S100000 (id (constant (F := Ideal) S_ .f32 0x3F800000#32)) (ix1 r)
      = Ideal.ofBits .f32 oneWord :=
  (broadcastInDim_apply (s := S_) ![] bcast_S_S100000 _ (ix1 r) (fun a => a.elim0) (fun a => a.elim0)).trans rfl

/-- The reference's normalised features are the layer's, of the features and the out-degree counts. -/
theorem norm_stage (x0 : (⟨S100000x64, .f32⟩ : BufTy).Contents (Elt Ideal))
    (x1 : (⟨S1600000, .i32⟩ : BufTy).Contents (Elt Ideal)) :
    val_main_v8 (F := Ideal) x0 x1 = normRows x0 (val_main_v3 (F := Ideal) x1) := by
  funext i
  obtain ⟨r, q, rfl⟩ : ∃ (r : Fin 100000) (q : Fin 64), i = ix2 r q := ⟨i 0, i 1, eq_ix2 i⟩
  rw [normRows_apply]
  show x0 (ix2 r q) * _ = _
  exact congrArg (x0 (ix2 r q) * ·) (scale_entry (val_main_v3 (F := Ideal) x1) _ ones_entry r q)

/-- The in-degree scale at any column of row r. -/
theorem in_scale_entry (x2 : (⟨S1600000, .i32⟩ : BufTy).Contents (Elt Ideal)) (r : Fin 100000) (q : Fin 64) :
    val_main_v30 (F := Ideal) x2 (ix2 r q) = invSqrtDeg (val_main_v26 (F := Ideal) x2 (ix1 r)) :=
  scale_entry (val_main_v26 (F := Ideal) x2) _ ones_entry r q

/-- The bias spread over the rows reads the column's entry. -/
theorem bias_entry (x4 : (⟨S64, .f32⟩ : BufTy).Contents (Elt Ideal)) (r : Fin 100000) (q : Fin 64) :
    val_main_v22 (F := Ideal) x4 (ix2 r q) = x4 (ix1 q) := by
  rw [val_main_v22_apply, val_main_v21_apply]
  refine congrArg x4 (funext fun a => ?_)
  match a with
  | ⟨0, _⟩ => rfl

/-- The host's product at an entry is the row's inner product with the column. -/
theorem product_entry (x0 : (⟨S100000x64, .f32⟩ : BufTy).Contents (Elt Ideal))
    (x1 x2 : (⟨S1600000, .i32⟩ : BufTy).Contents (Elt Ideal)) (x3 : (⟨S64x64, .f32⟩ : BufTy).Contents (Elt Ideal))
    (r : Fin 100000) (q : Fin 64) :
    val_main_v20 (F := Ideal) x0 x1 x2 x3 (ix2 r q)
      = ∑ k : Fin 64, val_main_v18 (F := Ideal) x0 x1 x2 (ix2 r k) * val_main_v19 (F := Ideal) x3 (ix2 k q) := by
  rw [val_main_v20_apply]
  refine Finset.sum_congr rfl fun k _ => ?_
  have el : lidx_main_v20 (ix2 r q) k = ix2 r k := funext fun a => by
    match a with
    | ⟨0, _⟩ => rfl
    | ⟨1, _⟩ => rfl
  have er : ridx_main_v20 (ix2 r q) k = ix2 k q := funext fun a => by
    match a with
    | ⟨0, _⟩ => rfl
    | ⟨1, _⟩ => rfl
  rw [el, er]

/-- The reference's result is the layer's rescaled dense stage, of the aggregated features, the transposed weights,
    the bias and the in-degree counts. -/
theorem dense_stage (x0 : (⟨S100000x64, .f32⟩ : BufTy).Contents (Elt Ideal))
    (x1 x2 : (⟨S1600000, .i32⟩ : BufTy).Contents (Elt Ideal)) (x3 : (⟨S64x64, .f32⟩ : BufTy).Contents (Elt Ideal))
    (x4 : (⟨S64, .f32⟩ : BufTy).Contents (Elt Ideal)) :
    val_main_v31 (F := Ideal) x0 x1 x2 x3 x4
      = denseRescale (val_main_v18 (F := Ideal) x0 x1 x2) (val_main_v19 (F := Ideal) x3) x4 (val_main_v26 (F := Ideal) x2) := by
  funext i
  obtain ⟨r, q, rfl⟩ : ∃ (r : Fin 100000) (q : Fin 64), i = ix2 r q := ⟨i 0, i 1, eq_ix2 i⟩
  rw [denseRescale_apply, val_main_v31_apply, val_main_v23_apply, product_entry, bias_entry, in_scale_entry,
    Ideal.mulf_def, Ideal.addf_def]

end Cert.ReferenceIdeal.Stages

end
-- ==== Proof.Bridge.lean ====
/-
  The two programs compute one function.

  The reference's result is the layer's rescaled dense stage of its own edge aggregation, and that aggregation
  gathers rows of its normalised features (`dense_stage`, `norm_stage`).  The kernel program applies the same host
  operations — the same scatters of ones for the degrees, the same wrapped gather, the same accumulating scatter, the same
  transpose — to the same arguments, and a change of float format in between is the identity on the extended reals;
  so the kernel's `layerTerm` and the reference's result are one term.
-/
import proofs.«177598_j53695681134706_2_alg».proof.Proof.KValue
import proofs.«177598_j53695681134706_2_alg».proof.Proof.RefStages

noncomputable section

namespace Cert.Bridge

open Cert.GcnLayer
open Idealize.ShloMosaic

/-- The reference's result term is the kernel program's layer of the same arguments. -/
theorem reference_eq_layer (x0 : (⟨Cert.ReferenceIdeal.S100000x64, .f32⟩ : BufTy).Contents (Elt Ideal))
    (x1 x2 : (⟨Cert.ReferenceIdeal.S1600000, .i32⟩ : BufTy).Contents (Elt Ideal))
    (x3 : (⟨Cert.ReferenceIdeal.S64x64, .f32⟩ : BufTy).Contents (Elt Ideal))
    (x4 : (⟨Cert.ReferenceIdeal.S64, .f32⟩ : BufTy).Contents (Elt Ideal)) :
    Cert.ReferenceIdeal.Read.val_main_v31 (F := Ideal) x0 x1 x2 x3 x4 = Cert.KernelIdeal.Value.layerTerm x0 x1 x2 x3 x4 := by
  rw [Cert.ReferenceIdeal.Stages.dense_stage]
  unfold Cert.KernelIdeal.Value.layerTerm
  have hagg : Cert.ReferenceIdeal.Read.val_main_v18 (F := Ideal) x0 x1 x2
      = Cert.KernelIdeal.Stretch1.aggregate (normRows x0 (Cert.KernelIdeal.Stretch0.counts x1)) x1 x2 := by
    unfold Cert.ReferenceIdeal.Read.val_main_v18 Cert.ReferenceIdeal.Read.val_main_v15
    rw [Cert.ReferenceIdeal.Stages.norm_stage]
    rfl
  rw [hagg]
  rfl

end Cert.Bridge

end
-- ==== Proof.lean ====
/-
  One graph-convolution layer: out = ((A · (x · d_out^(-1/2))) · Wᵀ + b) · d_in^(-1/2), where A sums, for every node, the
  rows of its in-neighbours, and d_out, d_in are the out- and in-degrees floored at one.

  The kernel program computes the degree counts on the host, normalises the features in a first launch (ten row
  blocks), gathers and accumulates over the edges on the host, and applies the dense layer and the in-degree rescaling
  in a second launch (twenty-five row blocks); it stores the normalised features and both degree columns in a
  narrower float format.  The reference does everything on the host in one format.  Over the extended reals a change
  of format is the identity, the matrix unit's product into zero and the host's product are the same sum, and max is
  symmetric, so the two programs apply the same operations to the same arguments: their results are one function of
  the five arguments (`Cert.Bridge.reference_eq_layer`), whatever the arguments are — the precondition is not used.
  The three frames are the generated ones (the reference's is its generated run with the result dropped), and the
  idealisation rewrote nothing.
-/
import proofs.«177598_j53695681134706_2_alg».proof.Defs
import proofs.«177598_j53695681134706_2_alg».proof.Proof.Gen.Kernel
import proofs.«177598_j53695681134706_2_alg».proof.Proof.Gen.Kernel.Frame
import proofs.«177598_j53695681134706_2_alg».proof.Proof.Gen.KernelIdeal
import proofs.«177598_j53695681134706_2_alg».proof.Proof.Gen.KernelIdeal.Frame
import proofs.«177598_j53695681134706_2_alg».proof.Proof.Gen.ReferenceIdeal
import proofs.«177598_j53695681134706_2_alg».proof.Proof.Gen.ReferenceIdeal.Run
import proofs.«177598_j53695681134706_2_alg».proof.Proof.Gen.ReferenceIdeal.Read
import proofs.«177598_j53695681134706_2_alg».proof.Proof.Gen.Pre_finite_inputs
import proofs.«177598_j53695681134706_2_alg».proof.Proof.KValue
import proofs.«177598_j53695681134706_2_alg».proof.Proof.Bridge
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- The idealisation rewrote no operation. -/
theorem preserves : Cert.preserves_Kernel_KernelIdeal := trivial

/-- Both idealised programs end with the layer of the arguments in their result arrays. -/
theorem algebraic : Cert.algebraic_KernelIdeal_ReferenceIdeal := by
  intro m ρ m' ρ' _ hagree
  refine ⟨fun c => Cert.KernelIdeal.Value.layerTerm
      (m ((c : Thread Cert.KernelIdeal.nD Cert.KernelIdeal.τ).loc Cert.KernelIdeal.main_arg0))
      (m ((c : Thread Cert.KernelIdeal.nD Cert.KernelIdeal.τ).loc Cert.KernelIdeal.main_arg1))
      (m ((c : Thread Cert.KernelIdeal.nD Cert.KernelIdeal.τ).loc Cert.KernelIdeal.main_arg2))
      (m ((c : Thread Cert.KernelIdeal.nD Cert.KernelIdeal.τ).loc Cert.KernelIdeal.main_arg3))
      (m ((c : Thread Cert.KernelIdeal.nD Cert.KernelIdeal.τ).loc Cert.KernelIdeal.main_arg4)),
    Cert.KernelIdeal.Value.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v31_eq, (hagree c).1, (hagree c).2.1, (hagree c).2.2.1, (hagree c).2.2.2.1,
    (hagree c).2.2.2.2]
  exact Cert.Bridge.reference_eq_layer _ _ _ _ _

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
